-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x12544 : Shape := ⟨2, ![1000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S_ : Shape := ⟨0, ![]⟩

class Facts : Prop where
  bcast_S_S1000x12544 : S_.BroadcastsInDim S1000x12544 (![] : Fin 0 → Fin S1000x12544.rank)
  reducesTo_S1000x12544_S_d0_1 : S1000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x91 : S_.BroadcastsInDim S1024x91 (![] : Fin 0 → Fin S1024x91.rank)
  reducesTo_S1024x91_S_d0_1 : S1024x91.ReducesTo [0, 1] S_
  bcast_S_S91 : S_.BroadcastsInDim S91 (![] : Fin 0 → Fin S91.rank)
  reducesTo_S91_S_d0 : S91.ReducesTo [0] S_
  bcast_S_S1024x364 : S_.BroadcastsInDim S1024x364 (![] : Fin 0 → Fin S1024x364.rank)
  reducesTo_S1024x364_S_d0_1 : S1024x364.ReducesTo [0, 1] S_
  bcast_S_S364 : S_.BroadcastsInDim S364 (![] : Fin 0 → Fin S364.rank)
  reducesTo_S364_S_d0 : S364.ReducesTo [0] S_

variable [Facts]

def fn_part2 {F : FTy → Type} [FloatOps F] (main_arg7 : FVec F S1024x364 .f32) (main_arg8 : FVec F S364 .f32) (main_v33 : IVec S_ 1) : IVec S_ 1 :=
  let main_v34 : FVec F S1024x364 .f32 := Host.absf main_arg7
  let main_cst_12 : FVec F S_ .f32 := constant S_ .f32 0x7F800000#32
  let main_v35 : FVec F S1024x364 .f32 := broadcastInDim S1024x364 ![] bcast_S_S1024x364 main_cst_12
  let main_v36 : IVec S1024x364 1 := cmpf .olt main_v34 main_v35
  let main_c_13 : IVec S_ 1 := constantI S_ 1 1#1
  let main_v37 : IVec S_ 1 := (fun x v => Host.reduce IntOp.andi x v reducesTo_S1024x364_S_d0_1 h_S_) main_v36 main_c_13
  let main_v38 : IVec S_ 1 := andi main_v33 main_v37
  let main_v39 : FVec F S364 .f32 := Host.absf main_arg8
  let main_cst_14 : FVec F S_ .f32 := constant S_ .f32 0x7F800000#32
  let main_v40 : FVec F S364 .f32 := broadcastInDim S364 ![] bcast_S_S364 main_cst_14
  let main_v41 : IVec S364 1 := cmpf .olt main_v39 main_v40
  let main_c_15 : IVec S_ 1 := constantI S_ 1 1#1
  let main_v42 : IVec S_ 1 := (fun x v => Host.reduce IntOp.andi x v reducesTo_S364_S_d0 h_S_) main_v41 main_c_15
  let main_v43 : IVec S_ 1 := andi main_v38 main_v42
  main_v43

def fn_part1 {F : FTy → Type} [FloatOps F] (main_arg4 : FVec F S1024 .f32) (main_arg5 : FVec F S1024x91 .f32) (main_arg6 : FVec F S91 .f32) (main_arg7 : FVec F S1024x364 .f32) (main_arg8 : FVec F S364 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x91 .f32 := Host.absf main_arg5
  let main_cst_8 : FVec F S_ .f32 := constant S_ .f32 0x7F800000#32
  let main_v25 : FVec F S1024x91 .f32 := broadcastInDim S1024x91 ![] bcast_S_S1024x91 main_cst_8
  let main_v26 : IVec S1024x91 1 := cmpf .olt main_v24 main_v25
  let main_c_9 : IVec S_ 1 := constantI S_ 1 1#1
  let main_v27 : IVec S_ 1 := (fun x v => Host.reduce IntOp.andi x v reducesTo_S1024x91_S_d0_1 h_S_) main_v26 main_c_9
  let main_v28 : IVec S_ 1 := andi main_v23 main_v27
  let main_v29 : FVec F S91 .f32 := Host.absf main_arg6
  let main_cst_10 : FVec F S_ .f32 := constant S_ .f32 0x7F800000#32
  let main_v30 : FVec F S91 .f32 := broadcastInDim S91 ![] bcast_S_S91 main_cst_10
  let main_v31 : IVec S91 1 := cmpf .olt main_v29 main_v30
  let main_c_11 : IVec S_ 1 := constantI S_ 1 1#1
  let main_v32 : IVec S_ 1 := (fun x v => Host.reduce IntOp.andi x v reducesTo_S91_S_d0 h_S_) main_v31 main_c_11
  let main_v33 : IVec S_ 1 := andi main_v28 main_v32
  fn_part2 (F := F) main_arg7 main_arg8 main_v33

def fn {F : FTy → Type} [FloatOps F] (main_arg0 : FVec F S1000x12544 .f32) (main_arg1 : FVec F S12544x1024 .f32) (main_arg2 : FVec F S1024 .f32) (main_arg3 : FVec F S1024x1024 .f32) (main_arg4 : FVec F S1024 .f32) (main_arg5 : FVec F S1024x91 .f32) (main_arg6 : FVec F S91 .f32) (main_arg7 : FVec F S1024x364 .f32) (main_arg8 : FVec F S364 .f32) : IVec S_ 1 :=
  let main_v0 : FVec F S1000x12544 .f32 := Host.absf main_arg0
  let main_cst : FVec F S_ .f32 := constant S_ .f32 0x7F800000#32
  let main_v1 : FVec F S1000x12544 .f32 := broadcastInDim S1000x12544 ![] bcast_S_S1000x12544 main_cst
  let main_v2 : IVec S1000x12544 1 := cmpf .olt main_v0 main_v1
  let main_c : IVec S_ 1 := constantI S_ 1 1#1
  let main_v3 : IVec S_ 1 := (fun x v => Host.reduce IntOp.andi x v reducesTo_S1000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S1000x12544 : Shape := ⟨2, ![1000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S1x1024 : Shape := ⟨2, ![1, 1024]⟩
abbrev S1x91 : Shape := ⟨2, ![1, 91]⟩
abbrev S1x364 : Shape := ⟨2, ![1, 364]⟩
abbrev S1000x91 : Shape := ⟨2, ![1000, 91]⟩
abbrev S1000x364 : Shape := ⟨2, ![1000, 364]⟩
abbrev S1000x1792 : Shape := ⟨2, ![1000, 1792]⟩
abbrev S1792x1024 : Shape := ⟨2, ![1792, 1024]⟩
abbrev S1000x1024 : Shape := ⟨2, ![1000, 1024]⟩

abbrev nBuf : Space → Nat
  | .hbm => 15
  | .vmem => 14
  | .smem => 0
  | _ => 0

abbrev bufTy : (tb : Table) → Fin (tcTables nBuf tb) → BufTy
  | .hbm, ⟨0, _⟩ => ⟨S1000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S1x1024, .f32⟩
  | .hbm, ⟨10, _⟩ => ⟨S1x1024, .f32⟩
  | .hbm, ⟨11, _⟩ => ⟨S1x91, .f32⟩
  | .hbm, ⟨12, _⟩ => ⟨S1x364, .f32⟩
  | .hbm, ⟨13, _⟩ => ⟨S1000x91, .f32⟩
  | .hbm, ⟨14, _⟩ => ⟨S1000x364, .f32⟩
  | .local _ .vmem, ⟨0, _⟩ => ⟨S1000x1792, .f32⟩
  | .local _ .vmem, ⟨1, _⟩ => ⟨S1000x1792, .f32⟩
  | .local _ .vmem, ⟨2, _⟩ => ⟨S1792x1024, .f32⟩
  | .local _ .vmem, ⟨3, _⟩ => ⟨S1792x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S1024x91, .f32⟩
  | .local _ .vmem, ⟨8, _⟩ => ⟨S1x91, .f32⟩
  | .local _ .vmem, ⟨9, _⟩ => ⟨S1024x364, .f32⟩
  | .local _ .vmem, ⟨10, _⟩ => ⟨S1x364, .f32⟩
  | .local _ .vmem, ⟨11, _⟩ => ⟨S1000x91, .f32⟩
  | .local _ .vmem, ⟨12, _⟩ => ⟨S1000x364, .f32⟩
  | .local _ .vmem, ⟨13, _⟩ => ⟨S1000x1024, .f32⟩
  | _, _ => ⟨S1000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v11 : BitVec 1 := Scalar.cmpi .eq arg0 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x91 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x91 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x364 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x364 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1000x91 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1000x364 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  shapeCasts_S1024_S1x1024 : S1024.ShapeCasts S1x1024
  shapeCasts_S91_S1x91 : S91.ShapeCasts S1x91
  shapeCasts_S364_S1x364 : S364.ShapeCasts S1x364
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000x1792_S1000x1792_0_0 : ∀ a, (![0, 0] : Fin 2 → Nat) a + S1000x1792.size a ≤ S1000x1792.size a
  h_S1000x1792 : 0 < S1000x1792.numel
  inb_S1792x1024_S1792x1024_0_0 : ∀ a, (![0, 0] : Fin 2 → Nat) a + S1792x1024.size a ≤ S1792x1024.size a
  h_S1792x1024 : 0 < S1792x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x1024_S1024x1024_0_0 : ∀ a, (![0, 0] : Fin 2 → Nat) a + S1024x1024.size a ≤ S1024x1024.size a
  h_S1024x1024 : 0 < S1024x1024.numel
  inb_S1024x91_S1024x91_0_0 : ∀ a, (![0, 0] : Fin 2 → Nat) a + S1024x91.size a ≤ S1024x91.size a
  h_S1024x91 : 0 < S1024x91.numel
  inb_S1x91_S1x91_0_0 : ∀ a, (![0, 0] : Fin 2 → Nat) a + S1x91.size a ≤ S1x91.size a
  h_S1x91 : 0 < S1x91.numel
  shapeCasts_S1x91_S1x91 : S1x91.ShapeCasts S1x91
  broadcasts_S1x91_S1000x91 : S1x91.Broadcasts S1000x91
  inb_S1000x91_S1000x91_0_0 : ∀ a, (![0, 0] : Fin 2 → Nat) a + S1000x91.size a ≤ S1000x91.size a
  h_S1000x91 : 0 < S1000x91.numel
  inb_S1024x364_S1024x364_0_0 : ∀ a, (![0, 0] : Fin 2 → Nat) a + S1024x364.size a ≤ S1024x364.size a
  h_S1024x364 : 0 < S1024x364.numel
  inb_S1x364_S1x364_0_0 : ∀ a, (![0, 0] : Fin 2 → Nat) a + S1x364.size a ≤ S1x364.size a
  h_S1x364 : 0 < S1x364.numel
  shapeCasts_S1x364_S1x364 : S1x364.ShapeCasts S1x364
  broadcasts_S1x364_S1000x364 : S1x364.Broadcasts S1000x364
  inb_S1000x364_S1000x364_0_0 : ∀ a, (![0, 0] : Fin 2 → Nat) a + S1000x364.size a ≤ S1000x364.size a
  h_S1000x364 : 0 < S1000x364.numel
  dot_S1000x1792_S1792x1024_S1000x1024_1_0_0_1_n_n_wf : DotDims.WF S1000x1792 S1792x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x91_S1000x91_1_0_0_1_n_n_wf : DotDims.WF S1000x1024 S1024x91 S1000x91 [1] [0] [0] [1] [] []
  dot_S1000x1024_S1024x364_S1000x364_1_0_0_1_n_n_wf : DotDims.WF S1000x1024 S1024x364 S1000x364 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1792.size a ≤ S1000x12544.size a
  hwx0_0 : ∀ i : grid0.Coords, EltTy.bits .f32 = 32 ∨ (Rect.block (s := S1000x12544) S1000x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1024.size a ≤ S12544x1024.size a
  hwx0_1 : ∀ i : grid0.Coords, EltTy.bits .f32 = 32 ∨ (Rect.block (s := S12544x1024) S1792x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x91.size a ≤ S1024x91.size a
  hwx0_5 : ∀ i : grid0.Coords, EltTy.bits .f32 = 32 ∨ (Rect.block (s := S1024x91) S1024x91.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x91.size a ≤ S1x91.size a
  hwx0_6 : ∀ i : grid0.Coords, EltTy.bits .f32 = 32 ∨ (Rect.block (s := S1x91) S1x91.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x364.size a ≤ S1024x364.size a
  hwx0_7 : ∀ i : grid0.Coords, EltTy.bits .f32 = 32 ∨ (Rect.block (s := S1024x364) S1024x364.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x364.size a ≤ S1x364.size a
  hwx0_8 : ∀ i : grid0.Coords, EltTy.bits .f32 = 32 ∨ (Rect.block (s := S1x364) S1x364.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1000x91.size a ≤ S1000x91.size a
  hwx0_9 : ∀ i : grid0.Coords, EltTy.bits .f32 = 32 ∨ (Rect.block (s := S1000x91) S1000x91.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1000x364.size a ≤ S1000x364.size a
  hwx0_10 : ∀ i : grid0.Coords, EltTy.bits .f32 = 32 ∨ (Rect.block (s := S1000x364) S1000x364.size (cc0_transform_10 i) (hinb0_10 i)).WholeWords (EltTy.packing .f32)

variable [Facts₀]

def dot_S1000x1792_S1792x1024_S1000x1024_1_0_0_1_n_n : DotDims S1000x1792 S1792x1024 S1000x1024 where
  lhsContracting := [1]
  rhsContracting := [0]
  lhsNonContracting := [0]
  rhsNonContracting := [1]
  lhsBatch := []
  rhsBatch := []
  wf := dot_S1000x1792_S1792x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x91_S1000x91_1_0_0_1_n_n : DotDims S1000x1024 S1024x91 S1000x91 where
  lhsContracting := [1]
  rhsContracting := [0]
  lhsNonContracting := [0]
  rhsNonContracting := [1]
  lhsBatch := []
  rhsBatch := []
  wf := dot_S1000x1024_S1024x91_S1000x91_1_0_0_1_n_n_wf
def dot_S1000x1024_S1024x364_S1000x364_1_0_0_1_n_n : DotDims S1000x1024 S1024x364 S1000x364 where
  lhsContracting := [1]
  rhsContracting := [0]
  lhsNonContracting := [0]
  rhsNonContracting := [1]
  lhsBatch := []
  rhsBatch := []
  wf := dot_S1000x1024_S1024x364_S1000x364_1_0_0_1_n_n_wf

abbrev win0_0 : Pipeline.Window sig grid0 :=
  Pipeline.Window.ofSpec (Memref.whole main_arg0) S1000x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1792x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x91.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x91.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x364.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S1x364.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1000x91.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1000x364.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S1000x12544 : Shape := ⟨2, ![1000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S1000x1024 : Shape := ⟨2, ![1000, 1024]⟩
abbrev S1x1024 : Shape := ⟨2, ![1, 1024]⟩
abbrev S_ : Shape := ⟨0, ![]⟩
abbrev S1000x91 : Shape := ⟨2, ![1000, 91]⟩
abbrev S1x91 : Shape := ⟨2, ![1, 91]⟩
abbrev S1000x364 : Shape := ⟨2, ![1000, 364]⟩
abbrev S1x364 : Shape := ⟨2, ![1, 364]⟩

abbrev nBuf : Space → Nat
  | .hbm => 31
  | .vmem => 0
  | .smem => 0
  | _ => 0

abbrev bufTy : (tb : Table) → Fin (tcTables nBuf tb) → BufTy
  | .hbm, ⟨0, _⟩ => ⟨S1000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S1000x1024, .f32⟩
  | .hbm, ⟨10, _⟩ => ⟨S1x1024, .f32⟩
  | .hbm, ⟨11, _⟩ => ⟨S1000x1024, .f32⟩
  | .hbm, ⟨12, _⟩ => ⟨S1000x1024, .f32⟩
  | .hbm, ⟨13, _⟩ => ⟨S_, .f32⟩
  | .hbm, ⟨14, _⟩ => ⟨S1000x1024, .f32⟩
  | .hbm, ⟨15, _⟩ => ⟨S1000x1024, .f32⟩
  | .hbm, ⟨16, _⟩ => ⟨S1000x1024, .f32⟩
  | .hbm, ⟨17, _⟩ => ⟨S1x1024, .f32⟩
  | .hbm, ⟨18, _⟩ => ⟨S1000x1024, .f32⟩
  | .hbm, ⟨19, _⟩ => ⟨S1000x1024, .f32⟩
  | .hbm, ⟨20, _⟩ => ⟨S_, .f32⟩
  | .hbm, ⟨21, _⟩ => ⟨S1000x1024, .f32⟩
  | .hbm, ⟨22, _⟩ => ⟨S1000x1024, .f32⟩
  | .hbm, ⟨23, _⟩ => ⟨S1000x91, .f32⟩
  | .hbm, ⟨24, _⟩ => ⟨S1x91, .f32⟩
  | .hbm, ⟨25, _⟩ => ⟨S1000x91, .f32⟩
  | .hbm, ⟨26, _⟩ => ⟨S1000x91, .f32⟩
  | .hbm, ⟨27, _⟩ => ⟨S1000x364, .f32⟩
  | .hbm, ⟨28, _⟩ => ⟨S1x364, .f32⟩
  | .hbm, ⟨29, _⟩ => ⟨S1000x364, .f32⟩
  | .hbm, ⟨30, _⟩ => ⟨S1000x364, .f32⟩
  | _, _ => ⟨S1000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S1000x1024_0_1 : S1x1024.BroadcastsInDim S1000x1024 (![0, 1] : Fin 2 → Fin S1000x1024.rank)
  bcast_S_S1000x1024 : S_.BroadcastsInDim S1000x1024 (![] : Fin 0 → Fin S1000x1024.rank)
  bcast_S91_S1x91_1 : S91.BroadcastsInDim S1x91 (![1] : Fin 1 → Fin S1x91.rank)
  bcast_S1x91_S1000x91_0_1 : S1x91.BroadcastsInDim S1000x91 (![0, 1] : Fin 2 → Fin S1000x91.rank)
  bcast_S364_S1x364_1 : S364.BroadcastsInDim S1x364 (![1] : Fin 1 → Fin S1x364.rank)
  bcast_S1x364_S1000x364_0_1 : S1x364.BroadcastsInDim S1000x364 (![0, 1] : Fin 2 → Fin S1000x364.rank)
  dot_S1000x12544_S12544x1024_S1000x1024_1_0_0_1_n_n_wf : DotDims.WF S1000x12544 S12544x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x91_S1000x91_1_0_0_1_n_n_wf : DotDims.WF S1000x1024 S1024x91 S1000x91 [1] [0] [0] [1] [] []
  dot_S1000x1024_S1024x364_S1000x364_1_0_0_1_n_n_wf : DotDims.WF S1000x1024 S1024x364 S1000x364 [1] [0] [0] [1] [] []

variable [Facts₀]

def dot_S1000x12544_S12544x1024_S1000x1024_1_0_0_1_n_n : DotDims S1000x12544 S12544x1024 S1000x1024 where
  lhsContracting := [1]
  rhsContracting := [0]
  lhsNonContracting := [0]
  rhsNonContracting := [1]
  lhsBatch := []
  rhsBatch := []
  wf := dot_S1000x12544_S12544x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x91_S1000x91_1_0_0_1_n_n : DotDims S1000x1024 S1024x91 S1000x91 where
  lhsContracting := [1]
  rhsContracting := [0]
  lhsNonContracting := [0]
  rhsNonContracting := [1]
  lhsBatch := []
  rhsBatch := []
  wf := dot_S1000x1024_S1024x91_S1000x91_1_0_0_1_n_n_wf
def dot_S1000x1024_S1024x364_S1000x364_1_0_0_1_n_n : DotDims S1000x1024 S1024x364 S1000x364 where
  lhsContracting := [1]
  rhsContracting := [0]
  lhsNonContracting := [0]
  rhsNonContracting := [1]
  lhsBatch := []
  rhsBatch := []
  wf := dot_S1000x1024_S1024x364_S1000x364_1_0_0_1_n_n_wf

class Facts : Prop extends Facts₀ where

variable [Facts]
-- ==== Proof.Pieces.lean ====
/-
  What one run of the kernel body leaves behind, per control case, as values of the body's pure terms. The body keeps a
  running sum in a scratch buffer: at the grid's first point it stores zeros there and then adds that point's partial
  product `x_k · W₁_k`; at every later point it adds the point's partial product to what the point before left; at
  the last point it then reads the finished sum back and computes both output blocks from it. Each store covers its
  whole buffer, so what a buffer holds afterwards is the last store's value, and a load after a covering store reads
  that store's value.
-/
import proofs.«111697_g32693291057340_cont_8to1_b_1144_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first point: the scratch ends at `0 + x₀ · W₁₀` (the zero block stored, read back, the product added). -/
theorem scratch_first (c : Dev nD) (i : grid0.Coords) (a1 : Memref sig .tc .vmem S1000x1792 .f32) (h1 : a1.IsWhole) (a2 : Memref sig .tc .vmem S1792x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x91 .f32) (h6 : a6.IsWhole) (a7 : Memref sig .tc .vmem S1x91 .f32) (h7 : a7.IsWhole) (a8 : Memref sig .tc .vmem S1024x364 .f32) (h8 : a8.IsWhole) (a9 : Memref sig .tc .vmem S1x364 .f32) (h9 : a9.IsWhole) (a10 : Memref sig .tc .vmem S1000x91 .f32) (h10 : a10.IsWhole) (a11 : Memref sig .tc .vmem S1000x364 .f32) (h11 : a11.IsWhole) (a12 : Memref sig .tc .vmem S1000x1024 .f32) (h12 : a12.IsWhole) (hc0 : cond0_0 i) (hc1 : ¬cond0_1 i) (x0 : Vec F S1000x1792 .f32) (x1 : Vec F S1792x1024 .f32) (x2 : Vec F S1x1024 .f32) (x3 : Vec F S1024x1024 .f32) (x4 : Vec F S1x1024 .f32) (x5 : Vec F S1024x91 .f32) (x6 : Vec F S1x91 .f32) (x7 : Vec F S1024x364 .f32) (x8 : Vec F S1x364 .f32) :
    sout0_A_0 c i a1 h1 a2 h2 a3 h3 a4 h4 a5 h5 a6 h6 a7 h7 a8 h8 a9 h9 a10 h10 a11 h11 a12 h12 hc0 hc1 x0 x1 x2 x3 x4 x5 x6 x7 x8 = k0_pay2 k0_pay1 x0 x1 := by
  unfold sout0_A_0
  rw [View.read_writes_eq_canon _ _ _ (scover0_A_0 c i a1 h1 a2 h2 a3 h3 a4 h4 a5 h5 a6 h6 a7 h7 a8 h8 a9 h9 a10 h10 a11 h11 a12 h12 hc0 hc1 x0 x1 x2 x3 x4 x5 x6 x7 x8)]
  unfold kernelRun0_A
  dsimp only
  sl_unfold_words
  rw [View.canon_cons_unit_zero (S := S1000x1024) hz, View.readCov_unit_zero (S := S1000x1024) _ hz]
  simp only [View.readAt_eq_ld, h1.read_unread, h2.read_unread, h3.read_unread, h4.read_unread, h5.read_unread, h6.read_unread, h7.read_unread, h8.read_unread, h9.read_unread, h12.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz]

/-- A middle point: the scratch ends at what the point before left plus this point's product. -/
theorem scratch_middle (c : Dev nD) (i : grid0.Coords) (a1 : Memref sig .tc .vmem S1000x1792 .f32) (h1 : a1.IsWhole) (a2 : Memref sig .tc .vmem S1792x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x91 .f32) (h6 : a6.IsWhole) (a7 : Memref sig .tc .vmem S1x91 .f32) (h7 : a7.IsWhole) (a8 : Memref sig .tc .vmem S1024x364 .f32) (h8 : a8.IsWhole) (a9 : Memref sig .tc .vmem S1x364 .f32) (h9 : a9.IsWhole) (a10 : Memref sig .tc .vmem S1000x91 .f32) (h10 : a10.IsWhole) (a11 : Memref sig .tc .vmem S1000x364 .f32) (h11 : a11.IsWhole) (a12 : Memref sig .tc .vmem S1000x1024 .f32) (h12 : a12.IsWhole) (hc0 : ¬cond0_0 i) (hc1 : ¬cond0_1 i) (x0 : Vec F S1000x1792 .f32) (x1 : Vec F S1792x1024 .f32) (x2 : Vec F S1x1024 .f32) (x3 : Vec F S1024x1024 .f32) (x4 : Vec F S1x1024 .f32) (x5 : Vec F S1024x91 .f32) (x6 : Vec F S1x91 .f32) (x7 : Vec F S1024x364 .f32) (x8 : Vec F S1x364 .f32) (xs0 : Vec F S1000x1024 .f32) :
    sout0_B_0 c i a1 h1 a2 h2 a3 h3 a4 h4 a5 h5 a6 h6 a7 h7 a8 h8 a9 h9 a10 h10 a11 h11 a12 h12 hc0 hc1 x0 x1 x2 x3 x4 x5 x6 x7 x8 xs0 = k0_pay2 xs0 x0 x1 := by
  unfold sout0_B_0
  rw [View.read_writes_eq_canon _ _ _ (scover0_B_0 c i a1 h1 a2 h2 a3 h3 a4 h4 a5 h5 a6 h6 a7 h7 a8 h8 a9 h9 a10 h10 a11 h11 a12 h12 hc0 hc1 x0 x1 x2 x3 x4 x5 x6 x7 x8 xs0)]
  unfold kernelRun0_B
  dsimp only
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz]

/-- The last point: the scratch again ends at what the point before left plus this point's product … -/
theorem scratch_last (c : Dev nD) (i : grid0.Coords) (a1 : Memref sig .tc .vmem S1000x1792 .f32) (h1 : a1.IsWhole) (a2 : Memref sig .tc .vmem S1792x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x91 .f32) (h6 : a6.IsWhole) (a7 : Memref sig .tc .vmem S1x91 .f32) (h7 : a7.IsWhole) (a8 : Memref sig .tc .vmem S1024x364 .f32) (h8 : a8.IsWhole) (a9 : Memref sig .tc .vmem S1x364 .f32) (h9 : a9.IsWhole) (a10 : Memref sig .tc .vmem S1000x91 .f32) (h10 : a10.IsWhole) (a11 : Memref sig .tc .vmem S1000x364 .f32) (h11 : a11.IsWhole) (a12 : Memref sig .tc .vmem S1000x1024 .f32) (h12 : a12.IsWhole) (hc0 : ¬cond0_0 i) (hc1 : cond0_1 i) (x0 : Vec F S1000x1792 .f32) (x1 : Vec F S1792x1024 .f32) (x2 : Vec F S1x1024 .f32) (x3 : Vec F S1024x1024 .f32) (x4 : Vec F S1x1024 .f32) (x5 : Vec F S1024x91 .f32) (x6 : Vec F S1x91 .f32) (x7 : Vec F S1024x364 .f32) (x8 : Vec F S1x364 .f32) (xs0 : Vec F S1000x1024 .f32) :
    sout0_C_0 c i a1 h1 a2 h2 a3 h3 a4 h4 a5 h5 a6 h6 a7 h7 a8 h8 a9 h9 a10 h10 a11 h11 a12 h12 hc0 hc1 x0 x1 x2 x3 x4 x5 x6 x7 x8 xs0 = k0_pay2 xs0 x0 x1 := by
  unfold sout0_C_0
  rw [View.read_writes_eq_canon _ _ _ (scover0_C_0 c i a1 h1 a2 h2 a3 h3 a4 h4 a5 h5 a6 h6 a7 h7 a8 h8 a9 h9 a10 h10 a11 h11 a12 h12 hc0 hc1 x0 x1 x2 x3 x4 x5 x6 x7 x8 xs0)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h12.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz]

/-- … and the first output block is the first head's term of that finished sum … -/
theorem score_last (c : Dev nD) (i : grid0.Coords) (a1 : Memref sig .tc .vmem S1000x1792 .f32) (h1 : a1.IsWhole) (a2 : Memref sig .tc .vmem S1792x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x91 .f32) (h6 : a6.IsWhole) (a7 : Memref sig .tc .vmem S1x91 .f32) (h7 : a7.IsWhole) (a8 : Memref sig .tc .vmem S1024x364 .f32) (h8 : a8.IsWhole) (a9 : Memref sig .tc .vmem S1x364 .f32) (h9 : a9.IsWhole) (a10 : Memref sig .tc .vmem S1000x91 .f32) (h10 : a10.IsWhole) (a11 : Memref sig .tc .vmem S1000x364 .f32) (h11 : a11.IsWhole) (a12 : Memref sig .tc .vmem S1000x1024 .f32) (h12 : a12.IsWhole) (hc0 : ¬cond0_0 i) (hc1 : cond0_1 i) (x0 : Vec F S1000x1792 .f32) (x1 : Vec F S1792x1024 .f32) (x2 : Vec F S1x1024 .f32) (x3 : Vec F S1024x1024 .f32) (x4 : Vec F S1x1024 .f32) (x5 : Vec F S1024x91 .f32) (x6 : Vec F S1x91 .f32) (x7 : Vec F S1024x364 .f32) (x8 : Vec F S1x364 .f32) (xs0 : Vec F S1000x1024 .f32) :
    out0_C_9 c i a1 h1 a2 h2 a3 h3 a4 h4 a5 h5 a6 h6 a7 h7 a8 h8 a9 h9 a10 h10 a11 h11 a12 h12 hc0 hc1 x0 x1 x2 x3 x4 x5 x6 x7 x8 xs0 = k0_pay4 (k0_pay2 xs0 x0 x1) x2 x3 x4 x5 x6 := by
  unfold out0_C_9
  rw [View.read_writes_eq_canon _ _ _ (cover0_C_9 c i a1 h1 a2 h2 a3 h3 a4 h4 a5 h5 a6 h6 a7 h7 a8 h8 a9 h9 a10 h10 a11 h11 a12 h12 hc0 hc1 x0 x1 x2 x3 x4 x5 x6 x7 x8 xs0)]
  unfold kernelRun0_C
  dsimp only
  sl_unfold_words
  rw [View.canon_unit_zero hz, View.readCov_unit_zero (S := S1000x1024) _ hz]
  simp only [View.readAt_eq_ld, h1.read_unread, h2.read_unread, h3.read_unread, h4.read_unread, h5.read_unread, h6.read_unread, h7.read_unread, h8.read_unread, h9.read_unread, h12.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz]

/-- … and the second output block the second head's. -/
theorem bbox_last (c : Dev nD) (i : grid0.Coords) (a1 : Memref sig .tc .vmem S1000x1792 .f32) (h1 : a1.IsWhole) (a2 : Memref sig .tc .vmem S1792x1024 .f32) (h2 : a2.IsWhole) (a3 : Memref sig .tc .vmem S1x1024 .f32) (h3 : a3.IsWhole) (a4 : Memref sig .tc .vmem S1024x1024 .f32) (h4 : a4.IsWhole) (a5 : Memref sig .tc .vmem S1x1024 .f32) (h5 : a5.IsWhole) (a6 : Memref sig .tc .vmem S1024x91 .f32) (h6 : a6.IsWhole) (a7 : Memref sig .tc .vmem S1x91 .f32) (h7 : a7.IsWhole) (a8 : Memref sig .tc .vmem S1024x364 .f32) (h8 : a8.IsWhole) (a9 : Memref sig .tc .vmem S1x364 .f32) (h9 : a9.IsWhole) (a10 : Memref sig .tc .vmem S1000x91 .f32) (h10 : a10.IsWhole) (a11 : Memref sig .tc .vmem S1000x364 .f32) (h11 : a11.IsWhole) (a12 : Memref sig .tc .vmem S1000x1024 .f32) (h12 : a12.IsWhole) (hc0 : ¬cond0_0 i) (hc1 : cond0_1 i) (x0 : Vec F S1000x1792 .f32) (x1 : Vec F S1792x1024 .f32) (x2 : Vec F S1x1024 .f32) (x3 : Vec F S1024x1024 .f32) (x4 : Vec F S1x1024 .f32) (x5 : Vec F S1024x91 .f32) (x6 : Vec F S1x91 .f32) (x7 : Vec F S1024x364 .f32) (x8 : Vec F S1x364 .f32) (xs0 : Vec F S1000x1024 .f32) :
    out0_C_10 c i a1 h1 a2 h2 a3 h3 a4 h4 a5 h5 a6 h6 a7 h7 a8 h8 a9 h9 a10 h10 a11 h11 a12 h12 hc0 hc1 x0 x1 x2 x3 x4 x5 x6 x7 x8 xs0 = k0_pay5 (k0_pay2 xs0 x0 x1) x2 x3 x4 x7 x8 := by
  unfold out0_C_10
  rw [View.read_writes_eq_canon _ _ _ (cover0_C_10 c i a1 h1 a2 h2 a3 h3 a4 h4 a5 h5 a6 h6 a7 h7 a8 h8 a9 h9 a10 h10 a11 h11 a12 h12 hc0 hc1 x0 x1 x2 x3 x4 x5 x6 x7 x8 xs0)]
  unfold kernelRun0_C
  dsimp only
  sl_unfold_words
  rw [View.canon_unit_zero hz, View.readCov_unit_zero (S := S1000x1024) _ hz]
  simp only [View.readAt_eq_ld, h1.read_unread, h2.read_unread, h3.read_unread, h4.read_unread, h5.read_unread, h6.read_unread, h7.read_unread, h8.read_unread, h9.read_unread, h12.read_unread, View.ld_unit_zero (S := S1000x1024) hz, View.ld_unit_zero (S := S1000x1792) hz, View.ld_unit_zero (S := S1792x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz]

end Cert.KernelIdeal.Pieces

end
-- ==== Proof.BlockSum.lean ====
/-
  A finite sum split into consecutive blocks of equal length: a sum over the `n * b` positions `0 … n·b − 1` is
  the sum, over the `n` blocks, of the sums over the `b` positions inside each block; position `l` of block `s`
  is `b·s + l`. Stated for any commutative monoid, so it holds of the extended reals, infinities included: only
  the commutativity and associativity of addition are used.
-/
import Mathlib.Algebra.BigOperators.Fin

open scoped BigOperators

namespace Cert.BlockSum

/-- Position `l` of block `s`, among `n` blocks of length `b`, is a position below `n * b`. -/
theorem pos_lt {n b : Nat} (s : Fin n) (l : Fin b) : b * s.val + l.val < n * b := by
  have h1 : b * s.val + l.val < b * (s.val + 1) := by
    have := l.isLt
    rw [Nat.mul_succ]
    omega
  have h2 : b * (s.val + 1) ≤ b * n := Nat.mul_le_mul_left _ s.isLt
  rw [Nat.mul_comm n b]
  omega

/-- Position `l` of block `s`, as an index below `N = n * b`. -/
def pos {N : Nat} (n b : Nat) (h : n * b = N) (s : Fin n) (l : Fin b) : Fin N :=
  ⟨b * s.val + l.val, h ▸ pos_lt s l⟩

@[simp] theorem pos_val {N : Nat} (n b : Nat) (h : n * b = N) (s : Fin n) (l : Fin b) :
    (pos n b h s l).val = b * s.val + l.val := rfl

/-- The sum over all `N = n * b` positions is the sum over the blocks of the sums inside each block. -/
theorem sum_blocks {M : Type*} [AddCommMonoid M] {N : Nat} (n b : Nat) (h : n * b = N) (f : Fin N → M) :
    ∑ q : Fin N, f q = ∑ s : Fin n, ∑ l : Fin b, f (pos n b h s l) := by
  subst h
  rw [← Equiv.sum_comp finProdFinEquiv f, Fintype.sum_prod_type]
  refine Finset.sum_congr rfl fun s _ => Finset.sum_congr rfl fun l _ => congrArg f (Fin.ext ?_)
  show l.val + b * s.val = b * s.val + l.val
  omega

end Cert.BlockSum
-- ==== Proof.Blocks.lean ====
/-
  The input blocks the kernel body sees at a grid point, read at an index of the argument arrays. Point `t` of the
  seven sees columns `1792·t … 1792·t + 1791` of `x` and the same rows of `W₁`; every other window is one block, the
  whole array, at every point; the four bias windows hold the bias vectors viewed as one-row matrices, so entry
  `(0, k)` of such a block is entry `k` of the vector.
-/
import proofs.«111697_g32693291057340_cont_8to1_b_1144_3_alg».proof.Proof.Gen.KernelIdeal.Frame
import proofs.«111697_g32693291057340_cont_8to1_b_1144_3_alg».proof.Proof.BlockSum
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Grid point `t` as one of the seven column blocks. -/
abbrev blockOf (t : Fin cfg0.N) : Fin 7 := ⟨t.val, lt_of_lt_of_eq t.isLt N_0⟩

theorem index_x : ∀ t : Fin cfg0.N, win0_0.index t 0 = 0 ∧ win0_0.index t 1 = t.val :=
  (by decide +kernel : ∀ t : Fin grid0.N, win0_0.index t 0 = 0 ∧ win0_0.index t 1 = t.val)
theorem index_w1 : ∀ t : Fin cfg0.N, win0_1.index t 0 = t.val ∧ win0_1.index t 1 = 0 :=
  (by decide +kernel : ∀ t : Fin grid0.N, win0_1.index t 0 = t.val ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = 0 ∧ win0_3.index t 1 = 0 :=
  (by decide +kernel : ∀ t : Fin grid0.N, win0_3.index t 0 = 0 ∧ win0_3.index t 1 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 0 :=
  (by decide +kernel : ∀ t : Fin grid0.N, win0_6.index t 0 = 0 ∧ win0_6.index t 1 = 0)
theorem index_7 : ∀ t : Fin cfg0.N, win0_7.index t 0 = 0 ∧ win0_7.index t 1 = 0 :=
  (by decide +kernel : ∀ t : Fin grid0.N, win0_7.index t 0 = 0 ∧ win0_7.index t 1 = 0)
theorem index_8 : ∀ t : Fin cfg0.N, win0_8.index t 0 = 0 ∧ win0_8.index t 1 = 0 :=
  (by decide +kernel : ∀ t : Fin grid0.N, win0_8.index t 0 = 0 ∧ win0_8.index t 1 = 0)

/-- The block of `x` at point `t`, entry `(p, l)`: `x (p, 1792·t + l)`. -/
theorem x_apply (c : Dev nD) (t : Fin cfg0.N) (p : Fin 1000) (l : Fin 1792) :
    (iblk m c 0 t : Vec F S1000x1792 .f32) (ix2 p l)
      = m ((c : Thread nD τ).loc main_arg0) (ix2 p (Cert.BlockSum.pos 7 1792 rfl (blockOf t) l)) := by
  unfold iblk
  rw [View.read_apply]
  show V m c main_arg0 _ = _
  rw [V_main_arg0]
  refine congrArg _ (funext fun a => Fin.ext ?_)
  match a with
  | ⟨0, _⟩ =>
    show win0_0.index t 0 * 1000 + 1 * p.val = p.val
    rw [(index_x t).1]; omega
  | ⟨1, _⟩ =>
    show win0_0.index t 1 * 1792 + 1 * l.val = 1792 * t.val + l.val
    rw [(index_x t).2]; omega

/-- The block of `W₁` at point `t`, entry `(l, q)`: `W₁ (1792·t + l, q)`. -/
theorem w1_apply (c : Dev nD) (t : Fin cfg0.N) (l : Fin 1792) (q : Fin 1024) :
    (iblk m c 1 t : Vec F S1792x1024 .f32) (ix2 l q)
      = m ((c : Thread nD τ).loc main_arg1) (ix2 (Cert.BlockSum.pos 7 1792 rfl (blockOf t) l) q) := by
  unfold iblk
  rw [View.read_apply]
  show V m c main_arg1 _ = _
  rw [V_main_arg1]
  refine congrArg _ (funext fun a => Fin.ext ?_)
  match a with
  | ⟨0, _⟩ =>
    show win0_1.index t 0 * 1792 + 1 * l.val = 1792 * t.val + l.val
    rw [(index_w1 t).1]; omega
  | ⟨1, _⟩ =>
    show win0_1.index t 1 * 1024 + 1 * q.val = q.val
    rw [(index_w1 t).2]; omega

/-- Window 3's one block is the whole array `main_arg3`. -/
theorem whole3_apply (c : Dev nD) (t : Fin cfg0.N) (a : Fin 1024) (b : Fin 1024) :
    (iblk m c 3 t : Vec F S1024x1024 .f32) (ix2 a b) = m ((c : Thread nD τ).loc main_arg3) (ix2 a b) := by
  unfold iblk
  rw [View.read_apply]
  show V m c main_arg3 _ = _
  rw [V_main_arg3]
  refine congrArg _ (funext fun d => Fin.ext ?_)
  match d with
  | ⟨0, _⟩ =>
    show win0_3.index t 0 * 1024 + 1 * a.val = a.val
    rw [(index_3 t).1]; omega
  | ⟨1, _⟩ =>
    show win0_3.index t 1 * 1024 + 1 * b.val = b.val
    rw [(index_3 t).2]; omega

/-- Window 5's one block is the whole array `main_arg5`. -/
theorem whole5_apply (c : Dev nD) (t : Fin cfg0.N) (a : Fin 1024) (b : Fin 91) :
    (iblk m c 5 t : Vec F S1024x91 .f32) (ix2 a b) = m ((c : Thread nD τ).loc main_arg5) (ix2 a b) := by
  unfold iblk
  rw [View.read_apply]
  show V m c main_arg5 _ = _
  rw [V_main_arg5]
  refine congrArg _ (funext fun d => Fin.ext ?_)
  match d with
  | ⟨0, _⟩ =>
    show win0_5.index t 0 * 1024 + 1 * a.val = a.val
    rw [(index_5 t).1]; omega
  | ⟨1, _⟩ =>
    show win0_5.index t 1 * 91 + 1 * b.val = b.val
    rw [(index_5 t).2]; omega

/-- Window 7's one block is the whole array `main_arg7`. -/
theorem whole7_apply (c : Dev nD) (t : Fin cfg0.N) (a : Fin 1024) (b : Fin 364) :
    (iblk m c 7 t : Vec F S1024x364 .f32) (ix2 a b) = m ((c : Thread nD τ).loc main_arg7) (ix2 a b) := by
  unfold iblk
  rw [View.read_apply]
  show V m c main_arg7 _ = _
  rw [V_main_arg7]
  refine congrArg _ (funext fun d => Fin.ext ?_)
  match d with
  | ⟨0, _⟩ =>
    show win0_7.index t 0 * 1024 + 1 * a.val = a.val
    rw [(index_7 t).1]; omega
  | ⟨1, _⟩ =>
    show win0_7.index t 1 * 364 + 1 * b.val = b.val
    rw [(index_7 t).2]; omega

/-- What the region finds in `main_call0_v0`: the vector `main_arg2` viewed as a one-row matrix. -/
theorem row2_eq (c : Dev nD) : (V m c main_call0_v0 : S1x1024.Idx → Elt F .f32)
    = shapeCast S1x1024 (m ((c : Thread nD τ).loc main_arg2)) shapeCasts_S1024_S1x1024 := by
  dsimp only [Gen.V, Gen.hostOps0]
  after_results
  rfl

/-- Window 2's one block, entry `(0, k)`: entry `k` of `main_arg2`. -/
theorem row2_apply (c : Dev nD) (t : Fin cfg0.N) (k : Fin 1024) :
    (iblk m c 2 t : Vec F S1x1024 .f32) (ix2 (⟨0, Nat.one_pos⟩ : Fin 1) k) = m ((c : Thread nD τ).loc main_arg2) (ix1 k) := by
  unfold iblk
  rw [View.read_apply]
  show V m c main_call0_v0 _ = _
  rw [row2_eq]
  refine shapeCast_apply _ _ _ (ix1 k) ?_
  rw [Shape.rowMajor_val_one, Shape.rowMajor_val_two]
  show k.val = (win0_2.index t 0 * 1 + 1 * 0) * 1024 + (win0_2.index t 1 * 1024 + 1 * k.val)
  rw [(index_2 t).1, (index_2 t).2]; omega

/-- What the region finds in `main_call0_v1`: the vector `main_arg4` viewed as a one-row matrix. -/
theorem row4_eq (c : Dev nD) : (V m c main_call0_v1 : S1x1024.Idx → Elt F .f32)
    = shapeCast S1x1024 (m ((c : Thread nD τ).loc main_arg4)) shapeCasts_S1024_S1x1024 := by
  dsimp only [Gen.V, Gen.hostOps0]
  after_results
  rfl

/-- Window 4's one block, entry `(0, k)`: entry `k` of `main_arg4`. -/
theorem row4_apply (c : Dev nD) (t : Fin cfg0.N) (k : Fin 1024) :
    (iblk m c 4 t : Vec F S1x1024 .f32) (ix2 (⟨0, Nat.one_pos⟩ : Fin 1) k) = m ((c : Thread nD τ).loc main_arg4) (ix1 k) := by
  unfold iblk
  rw [View.read_apply]
  show V m c main_call0_v1 _ = _
  rw [row4_eq]
  refine shapeCast_apply _ _ _ (ix1 k) ?_
  rw [Shape.rowMajor_val_one, Shape.rowMajor_val_two]
  show k.val = (win0_4.index t 0 * 1 + 1 * 0) * 1024 + (win0_4.index t 1 * 1024 + 1 * k.val)
  rw [(index_4 t).1, (index_4 t).2]; omega

/-- What the region finds in `main_call0_v2`: the vector `main_arg6` viewed as a one-row matrix. -/
theorem row6_eq (c : Dev nD) : (V m c main_call0_v2 : S1x91.Idx → Elt F .f32)
    = shapeCast S1x91 (m ((c : Thread nD τ).loc main_arg6)) shapeCasts_S91_S1x91 := by
  dsimp only [Gen.V, Gen.hostOps0]
  after_results
  rfl

/-- Window 6's one block, entry `(0, k)`: entry `k` of `main_arg6`. -/
theorem row6_apply (c : Dev nD) (t : Fin cfg0.N) (k : Fin 91) :
    (iblk m c 6 t : Vec F S1x91 .f32) (ix2 (⟨0, Nat.one_pos⟩ : Fin 1) k) = m ((c : Thread nD τ).loc main_arg6) (ix1 k) := by
  unfold iblk
  rw [View.read_apply]
  show V m c main_call0_v2 _ = _
  rw [row6_eq]
  refine shapeCast_apply _ _ _ (ix1 k) ?_
  rw [Shape.rowMajor_val_one, Shape.rowMajor_val_two]
  show k.val = (win0_6.index t 0 * 1 + 1 * 0) * 91 + (win0_6.index t 1 * 91 + 1 * k.val)
  rw [(index_6 t).1, (index_6 t).2]; omega

/-- What the region finds in `main_call0_v3`: the vector `main_arg8` viewed as a one-row matrix. -/
theorem row8_eq (c : Dev nD) : (V m c main_call0_v3 : S1x364.Idx → Elt F .f32)
    = shapeCast S1x364 (m ((c : Thread nD τ).loc main_arg8)) shapeCasts_S364_S1x364 := by
  dsimp only [Gen.V, Gen.hostOps0]
  after_results
  rfl

/-- Window 8's one block, entry `(0, k)`: entry `k` of `main_arg8`. -/
theorem row8_apply (c : Dev nD) (t : Fin cfg0.N) (k : Fin 364) :
    (iblk m c 8 t : Vec F S1x364 .f32) (ix2 (⟨0, Nat.one_pos⟩ : Fin 1) k) = m ((c : Thread nD τ).loc main_arg8) (ix1 k) := by
  unfold iblk
  rw [View.read_apply]
  show V m c main_call0_v3 _ = _
  rw [row8_eq]
  refine shapeCast_apply _ _ _ (ix1 k) ?_
  rw [Shape.rowMajor_val_one, Shape.rowMajor_val_two]
  show k.val = (win0_8.index t 0 * 1 + 1 * 0) * 364 + (win0_8.index t 1 * 364 + 1 * k.val)
  rw [(index_8 t).1, (index_8 t).2]; omega

end Cert.KernelIdeal.Blocks

end
-- ==== Proof.PlainDot.lean ====
/-
  A matrix product `[M, K] × [K, N]` with the plain dimension numbers (contract the left operand's axis 1 with the
  right operand's axis 0), read at an output index `(p, c)` over the extended reals: the kernel's `tpu.matmul` into a
  zero accumulator and the host's `dot_general` are both `∑ k, a (p, k) · b (k, c)`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The contraction index set of the plain dimension numbers is `Fin K`. -/
abbrev ce (M K N : Nat) : (DotDims.plain M K N).contr.Idx ≃ Fin K := contrEquiv1 (DotDims.plain M K N) K rfl rfl

theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output `(p, c)` and contraction coordinate `k` is `(p, k)`. -/
theorem lhsIdx_eq (p : Fin M) (c : Fin N) (k : Fin K) :
    (DotDims.plain M K N).lhsIdx (ix2 p c) ((ce M K N).symm k) = ix2 p k := by
  have hk := contrEquiv1_symm_val (DotDims.plain M K N) K rfl rfl k
  funext a
  refine Fin.ext ?_
  match a with
  | ⟨0, _⟩ => exact lhs0 _ _
  | ⟨1, _⟩ => exact (lhs1 _ _).trans hk

/-- The right operand's index at output `(p, c)` and contraction coordinate `k` is `(k, c)`. -/
theorem rhsIdx_eq (p : Fin M) (c : Fin N) (k : Fin K) :
    (DotDims.plain M K N).rhsIdx (ix2 p c) ((ce M K N).symm k) = ix2 k c := by
  have hk := contrEquiv1_symm_val (DotDims.plain M K N) K rfl rfl k
  funext a
  refine Fin.ext ?_
  match a with
  | ⟨0, _⟩ => exact (rhs0 _ _).trans hk
  | ⟨1, _⟩ => exact rhs1 _ _

/-- The sum over the contraction index set, re-indexed by `Fin K`. -/
theorem contr_sum (a : (⟨2, ![M, K]⟩ : Shape).Idx → EReal) (b : (⟨2, ![K, N]⟩ : Shape).Idx → EReal) (p : Fin M) (c : Fin N) :
    ∑ q : (DotDims.plain M K N).contr.Idx,
        a ((DotDims.plain M K N).lhsIdx (ix2 p c) q) * b ((DotDims.plain M K N).rhsIdx (ix2 p c) q)
      = ∑ k : Fin K, a (ix2 p k) * b (ix2 k c) := by
  rw [← Equiv.sum_comp (ce M K N).symm]
  refine Finset.sum_congr rfl fun k _ => ?_
  rw [lhsIdx_eq, rhsIdx_eq]

/-- The kernel's matrix product into the zero accumulator, at an output index. -/
theorem matmul_apply (a : FVec Ideal ⟨2, ![M, K]⟩ .f32) (b : FVec Ideal ⟨2, ![K, N]⟩ .f32) (p : Fin M) (c : Fin N) :
    FloatOps.matmul (DotDims.plain M K N) none a b (constant ⟨2, ![M, N]⟩ .f32 0x00000000#32) (ix2 p c)
      = ∑ k : Fin K, a (ix2 p k) * b (ix2 k c) := by
  rw [Ideal.matmul_constant_zero_apply]
  exact contr_sum a b p c

/-- The host's `dot_general`, at an output index. -/
theorem dotGeneral_apply (sched : HostSchedule) (a : FVec Ideal ⟨2, ![M, K]⟩ .f32) (b : FVec Ideal ⟨2, ![K, N]⟩ .f32)
    (p : Fin M) (c : Fin N) :
    FloatOps.dotGeneral (DotDims.plain M K N) none sched a b (ix2 p c) = ∑ k : Fin K, a (ix2 p k) * b (ix2 k c) := by
  rw [Ideal.dotGeneral_apply]
  exact contr_sum a b p c

end Cert.PlainDot

end
-- ==== Proof.Mlp.lean ====
/-
  The function both programs compute, over the extended reals: a two-hidden-layer perceptron with two linear heads.
  For a row `x p` of the input,
      h₁ k = max (∑ q, x p q · W₁ q k + b₁ k) z          (12544 → 1024)
      h₂ k = max (∑ q, h₁ q · W₂ q k + b₂ k) z            (1024 → 1024)
      score n = ∑ k, h₂ k · Wc k n + bc n                  (1024 → 91)
      bbox  n = ∑ k, h₂ k · Wb k n + bb n                  (1024 → 364)
  where `z` is the value of the float word `+0.0` (kept as that word: the same word on both sides is never evaluated).
  Arrays are functions on the index sets of their literal shapes; `mat` and `vec` read them by coordinates.
-/
import Idealize.ShloMosaic.PureOps.Ideal
import Idealize.ShloMosaic.Lib.ValueIdx

noncomputable section

open scoped BigOperators

namespace Cert.Mlp

open Idealize.ShloMosaic Idealize.ShloMosaic.ValueIdx

/-- A rank-2 array by coordinates. -/
abbrev mat {M N : Nat} (X : (⟨2, ![M, N]⟩ : Shape).Idx → EReal) : Fin M → Fin N → EReal := fun a b => X (ix2 a b)
/-- A rank-1 array by its coordinate. -/
abbrev vec {N : Nat} (B : (⟨1, ![N]⟩ : Shape).Idx → EReal) : Fin N → EReal := fun a => B (ix1 a)

/-- The value of the float word `+0.0`. -/
abbrev z : EReal := Ideal.ofBits .f32 0x00000000#32

/-- One affine layer at output unit `n`: `∑ k, h k · w k n + b n`. -/
def dense {K N : Nat} (h : Fin K → EReal) (w : Fin K → Fin N → EReal) (b : Fin N → EReal) (n : Fin N) : EReal :=
  (∑ k : Fin K, h k * w k n) + b n

/-- The second hidden layer of one input row. -/
def hidden (x : Fin 12544 → EReal) (w1 : Fin 12544 → Fin 1024 → EReal) (b1 : Fin 1024 → EReal)
    (w2 : Fin 1024 → Fin 1024 → EReal) (b2 : Fin 1024 → EReal) (k : Fin 1024) : EReal :=
  max (dense (fun q => max (dense x w1 b1 q) z) w2 b2 k) z

/-- A linear head over the second hidden layer, as an array `[1000, N]`. -/
def head {N : Nat} (X : (⟨2, ![1000, 12544]⟩ : Shape).Idx → EReal) (W1 : (⟨2, ![12544, 1024]⟩ : Shape).Idx → EReal)
    (B1 : (⟨1, ![1024]⟩ : Shape).Idx → EReal) (W2 : (⟨2, ![1024, 1024]⟩ : Shape).Idx → EReal)
    (B2 : (⟨1, ![1024]⟩ : Shape).Idx → EReal) (W : (⟨2, ![1024, N]⟩ : Shape).Idx → EReal)
    (B : (⟨1, ![N]⟩ : Shape).Idx → EReal) : (⟨2, ![1000, N]⟩ : Shape).Idx → EReal :=
  fun i => dense (hidden (mat X (i 0)) (mat W1) (vec B1) (mat W2) (vec B2)) (mat W) (vec B) (i 1)

end Cert.Mlp

end
-- ==== Proof.Layers.lean ====
/-
  The body's pure terms read at one entry, over the extended reals. The accumulation step is
  `acc (p, q) + ∑ l, x (p, l) · w (l, q)`; the finishing step computes, from the finished sum `A`, the hidden layers
  `h₁ = max (A + b₁) 0`, `h₂ = max (h₁ · W₂ + b₂) 0` and a head `h₂ · W + b` — each bias a one-row matrix broadcast
  down the rows, each product the plain sum over the contracted coordinate.
-/
import proofs.«111697_g32693291057340_cont_8to1_b_1144_3_alg».proof.Proof.Gen.KernelIdeal.Skeleton
import proofs.«111697_g32693291057340_cont_8to1_b_1144_3_alg».proof.Proof.PlainDot
import proofs.«111697_g32693291057340_cont_8to1_b_1144_3_alg».proof.Proof.Mlp
import Idealize.ShloMosaic.Lib.Pipeline.Value
import Idealize.ShloMosaic.Lib.ValueIdx

noncomputable section

open scoped BigOperators
open Idealize.ShloMosaic Idealize.ShloMosaic.ValueIdx

namespace Cert.KernelIdeal.Layers

open Cert.KernelIdeal Cert.KernelIdeal.Gen Cert.Mlp

/-- Row 0 of a one-row matrix. -/
abbrev r0 : Fin 1 := ⟨0, Nat.one_pos⟩

/-- A one-row matrix broadcast down `R` rows reads its row 0 at every row. -/
theorem rowBcast_apply {α : Type} {R N : Nat} (hN : N ≠ 1) (r : (⟨2, ![1, N]⟩ : Shape).Idx → α)
    (h : (⟨2, ![1, N]⟩ : Shape).Broadcasts ⟨2, ![R, N]⟩) (p : Fin R) (q : Fin N) :
    broadcastTo ⟨2, ![R, N]⟩ r h (ix2 p q) = r (ix2 r0 q) :=
  broadcastTo_apply r h (ix2 p q) (ix2 r0 q) (fun a => match a with
    | ⟨0, _⟩ => by show 0 = if (1 : Nat) = 1 then 0 else _; rw [if_pos rfl]
    | ⟨1, _⟩ => by show q.val = if N = 1 then 0 else q.val; rw [if_neg hN])

/-- `max (a + bias) 0` at an entry, the bias a broadcast one-row matrix. -/
theorem relu_bias_apply {R N : Nat} (hN : N ≠ 1) (a : FVec Ideal ⟨2, ![R, N]⟩ .f32) (r : FVec Ideal ⟨2, ![1, N]⟩ .f32)
    (h : (⟨2, ![1, N]⟩ : Shape).Broadcasts ⟨2, ![R, N]⟩) (p : Fin R) (q : Fin N) :
    maximumf (addf a (broadcastTo ⟨2, ![R, N]⟩ r h)) (broadcast ⟨2, ![R, N]⟩ (Scalar.ofBits .f32 0x00000000#32)) (ix2 p q)
      = max (a (ix2 p q) + r (ix2 r0 q)) z := by
  show max (a (ix2 p q) + broadcastTo ⟨2, ![R, N]⟩ r h (ix2 p q)) z = _
  rw [rowBcast_apply hN]

/-- `a + bias` at an entry. -/
theorem bias_apply {R N : Nat} (hN : N ≠ 1) (a : FVec Ideal ⟨2, ![R, N]⟩ .f32) (r : FVec Ideal ⟨2, ![1, N]⟩ .f32)
    (h : (⟨2, ![1, N]⟩ : Shape).Broadcasts ⟨2, ![R, N]⟩) (p : Fin R) (q : Fin N) :
    addf a (broadcastTo ⟨2, ![R, N]⟩ r h) (ix2 p q) = a (ix2 p q) + r (ix2 r0 q) := by
  show a (ix2 p q) + broadcastTo ⟨2, ![R, N]⟩ r h (ix2 p q) = _
  rw [rowBcast_apply hN]

/-- The accumulation step at an entry. -/
theorem step_apply (v3 : Vec Ideal S1000x1024 .f32) (v4 : Vec Ideal S1000x1792 .f32) (v5 : Vec Ideal S1792x1024 .f32)
    (p : Fin 1000) (q : Fin 1024) :
    k0_pay2 (F := Ideal) v3 v4 v5 (ix2 p q) = v3 (ix2 p q) + ∑ l : Fin 1792, v4 (ix2 p l) * v5 (ix2 l q) := by
  unfold k0_pay2
  simp only [shapeCast_self]
  exact congrArg (v3 (ix2 p q) + ·) (Cert.PlainDot.matmul_apply (M := 1000) (K := 1792) (N := 1024) v4 v5 p q)

/-- The zero block the first point stores, at an entry. -/
theorem zero_apply (p : Fin 1000) (q : Fin 1024) : k0_pay1 (F := Ideal) (ix2 p q) = z := by
  unfold k0_pay1
  simp only [shapeCast_self]
  rfl

/-- The second hidden layer at an entry, from the finished sum `A`. -/
theorem hidden_apply (A : Vec Ideal S1000x1024 .f32) (b1 : Vec Ideal S1x1024 .f32) (w2 : Vec Ideal S1024x1024 .f32)
    (b2 : Vec Ideal S1x1024 .f32) (p : Fin 1000) (k : Fin 1024) :
    k0_pay3 (F := Ideal) A b1 w2 b2 (ix2 p k)
      = max ((∑ q : Fin 1024, max (A (ix2 p q) + b1 (ix2 r0 q)) z * w2 (ix2 q k)) + b2 (ix2 r0 k)) z := by
  unfold k0_pay3
  simp only [shapeCast_self]
  refine (relu_bias_apply (R := 1000) (N := 1024) (by decide) _ b2 _ p k).trans ?_
  refine congrArg (fun s => max (s + b2 (ix2 r0 k)) z) ?_
  refine (Cert.PlainDot.matmul_apply (M := 1000) (K := 1024) (N := 1024) _ w2 p k).trans ?_
  exact Finset.sum_congr rfl fun q _ => congrArg (· * w2 (ix2 q k))
    (relu_bias_apply (R := 1000) (N := 1024) (by decide) A b1 _ p q)

/-- The first head at an entry. -/
theorem score_apply (A : Vec Ideal S1000x1024 .f32) (b1 : Vec Ideal S1x1024 .f32) (w2 : Vec Ideal S1024x1024 .f32)
    (b2 : Vec Ideal S1x1024 .f32) (wc : Vec Ideal S1024x91 .f32) (bc : Vec Ideal S1x91 .f32) (p : Fin 1000) (n : Fin 91) :
    k0_pay4 (F := Ideal) A b1 w2 b2 wc bc (ix2 p n)
      = (∑ k : Fin 1024, k0_pay3 (F := Ideal) A b1 w2 b2 (ix2 p k) * wc (ix2 k n)) + bc (ix2 r0 n) := by
  unfold k0_pay4
  simp only [shapeCast_self]
  refine (bias_apply (R := 1000) (N := 91) (by decide) _ bc _ p n).trans ?_
  exact congrArg (· + bc (ix2 r0 n)) (Cert.PlainDot.matmul_apply (M := 1000) (K := 1024) (N := 91) _ wc p n)

/-- The second head at an entry. -/
theorem bbox_apply (A : Vec Ideal S1000x1024 .f32) (b1 : Vec Ideal S1x1024 .f32) (w2 : Vec Ideal S1024x1024 .f32)
    (b2 : Vec Ideal S1x1024 .f32) (wb : Vec Ideal S1024x364 .f32) (bb : Vec Ideal S1x364 .f32) (p : Fin 1000) (n : Fin 364) :
    k0_pay5 (F := Ideal) A b1 w2 b2 wb bb (ix2 p n)
      = (∑ k : Fin 1024, k0_pay3 (F := Ideal) A b1 w2 b2 (ix2 p k) * wb (ix2 k n)) + bb (ix2 r0 n) := by
  unfold k0_pay5
  simp only [shapeCast_self]
  refine (bias_apply (R := 1000) (N := 364) (by decide) _ bb _ p n).trans ?_
  exact congrArg (· + bb (ix2 r0 n)) (Cert.PlainDot.matmul_apply (M := 1000) (K := 1024) (N := 364) _ wb p n)

/-! ## The finishing step is the perceptron's function of the argument arrays -/

section Spec

variable (X : (⟨2, ![1000, 12544]⟩ : Shape).Idx → EReal) (W1 : (⟨2, ![12544, 1024]⟩ : Shape).Idx → EReal)
  (B1 : (⟨1, ![1024]⟩ : Shape).Idx → EReal) (W2 : (⟨2, ![1024, 1024]⟩ : Shape).Idx → EReal)
  (B2 : (⟨1, ![1024]⟩ : Shape).Idx → EReal)
  (A : Vec Ideal S1000x1024 .f32) (b1 : Vec Ideal S1x1024 .f32) (w2 : Vec Ideal S1024x1024 .f32) (b2 : Vec Ideal S1x1024 .f32)

/-- When the finished sum is `x · W₁` and the blocks hold the arrays, the body's second hidden layer is the
    perceptron's. -/
theorem hidden_eq (hA : ∀ p q, A (ix2 p q) = ∑ r : Fin 12544, X (ix2 p r) * W1 (ix2 r q))
    (hb1 : ∀ q, b1 (ix2 r0 q) = B1 (ix1 q)) (hw2 : ∀ a b, w2 (ix2 a b) = W2 (ix2 a b))
    (hb2 : ∀ q, b2 (ix2 r0 q) = B2 (ix1 q)) (p : Fin 1000) (k : Fin 1024) :
    k0_pay3 (F := Ideal) A b1 w2 b2 (ix2 p k) = hidden (mat X p) (mat W1) (vec B1) (mat W2) (vec B2) k := by
  rw [hidden_apply]
  simp only [hA, hb1, hw2, hb2]
  rfl

/-- … so the first output block is the first head … -/
theorem score_eq (wc : Vec Ideal S1024x91 .f32) (bc : Vec Ideal S1x91 .f32)
    (Wc : (⟨2, ![1024, 91]⟩ : Shape).Idx → EReal) (Bc : (⟨1, ![91]⟩ : Shape).Idx → EReal)
    (hA : ∀ p q, A (ix2 p q) = ∑ r : Fin 12544, X (ix2 p r) * W1 (ix2 r q))
    (hb1 : ∀ q, b1 (ix2 r0 q) = B1 (ix1 q)) (hw2 : ∀ a b, w2 (ix2 a b) = W2 (ix2 a b))
    (hb2 : ∀ q, b2 (ix2 r0 q) = B2 (ix1 q)) (hwc : ∀ a b, wc (ix2 a b) = Wc (ix2 a b))
    (hbc : ∀ q, bc (ix2 r0 q) = Bc (ix1 q)) :
    k0_pay4 (F := Ideal) A b1 w2 b2 wc bc = head X W1 B1 W2 B2 Wc Bc := by
  funext i
  obtain ⟨p, n, rfl⟩ : ∃ (p : Fin 1000) (n : Fin 91), i = ix2 p n := ⟨i 0, i 1, eq_ix2 i⟩
  rw [score_apply]
  simp only [hidden_eq X W1 B1 W2 B2 A b1 w2 b2 hA hb1 hw2 hb2, hwc, hbc]
  rfl

/-- … and the second output block the second head. -/
theorem bbox_eq (wb : Vec Ideal S1024x364 .f32) (bb : Vec Ideal S1x364 .f32)
    (Wb : (⟨2, ![1024, 364]⟩ : Shape).Idx → EReal) (Bb : (⟨1, ![364]⟩ : Shape).Idx → EReal)
    (hA : ∀ p q, A (ix2 p q) = ∑ r : Fin 12544, X (ix2 p r) * W1 (ix2 r q))
    (hb1 : ∀ q, b1 (ix2 r0 q) = B1 (ix1 q)) (hw2 : ∀ a b, w2 (ix2 a b) = W2 (ix2 a b))
    (hb2 : ∀ q, b2 (ix2 r0 q) = B2 (ix1 q)) (hwb : ∀ a b, wb (ix2 a b) = Wb (ix2 a b))
    (hbb : ∀ q, bb (ix2 r0 q) = Bb (ix1 q)) :
    k0_pay5 (F := Ideal) A b1 w2 b2 wb bb = head X W1 B1 W2 B2 Wb Bb := by
  funext i
  obtain ⟨p, n, rfl⟩ : ∃ (p : Fin 1000) (n : Fin 364), i = ix2 p n := ⟨i 0, i 1, eq_ix2 i⟩
  rw [bbox_apply]
  simp only [hidden_eq X W1 B1 W2 B2 A b1 w2 b2 hA hb1 hw2 hb2, hwb, hbb]
  rfl

end Spec

end Cert.KernelIdeal.Layers

end
-- ==== Proof.KernelValue.lean ====
/-
  What the idealized kernel's two result arrays hold after its run, over the extended reals. The scratch buffer after
  point `n` of the seven is `0 + ∑_{s ≤ n} x_s · W₁_s` (the fold of the accumulation step over the points, read at an
  entry); after the last point that is `∑_s ∑_l x (p, 1792·s + l) · W₁ (1792·s + l, q)`, which is the full product
  `∑_r x (p, r) · W₁ (r, q)` — the sum split into its seven column blocks, by commutativity and associativity of
  addition alone. The last point then computes both heads from it, and its write-back, the only one, covers each
  result array whole.
-/
import proofs.«111697_g32693291057340_cont_8to1_b_1144_3_alg».proof.Proof.Gen.KernelIdeal.Value
import proofs.«111697_g32693291057340_cont_8to1_b_1144_3_alg».proof.Proof.Pieces
import proofs.«111697_g32693291057340_cont_8to1_b_1144_3_alg».proof.Proof.Blocks
import proofs.«111697_g32693291057340_cont_8to1_b_1144_3_alg».proof.Proof.Layers
import proofs.«111697_g32693291057340_cont_8to1_b_1144_3_alg».proof.Proof.BlockSum
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.Mlp

variable (m : (ℓ : Loc nD τ sig) → Buf (Elt Ideal) ℓ) (ρ : Dev nD → PrngReg) (c : Dev nD)

/-! ## The argument arrays, as functions on their index sets -/

abbrev aX : (⟨2, ![1000, 12544]⟩ : Shape).Idx → EReal := m ((c : Thread nD τ).loc main_arg0)
abbrev aW1 : (⟨2, ![12544, 1024]⟩ : Shape).Idx → EReal := m ((c : Thread nD τ).loc main_arg1)
abbrev aB1 : (⟨1, ![1024]⟩ : Shape).Idx → EReal := m ((c : Thread nD τ).loc main_arg2)
abbrev aW2 : (⟨2, ![1024, 1024]⟩ : Shape).Idx → EReal := m ((c : Thread nD τ).loc main_arg3)
abbrev aB2 : (⟨1, ![1024]⟩ : Shape).Idx → EReal := m ((c : Thread nD τ).loc main_arg4)
abbrev aWc : (⟨2, ![1024, 91]⟩ : Shape).Idx → EReal := m ((c : Thread nD τ).loc main_arg5)
abbrev aBc : (⟨1, ![91]⟩ : Shape).Idx → EReal := m ((c : Thread nD τ).loc main_arg6)
abbrev aWb : (⟨2, ![1024, 364]⟩ : Shape).Idx → EReal := m ((c : Thread nD τ).loc main_arg7)
abbrev aBb : (⟨1, ![364]⟩ : Shape).Idx → EReal := m ((c : Thread nD τ).loc main_arg8)

/-- What the first result array ends holding: the first head. -/
abbrev scoreOf : Buf (Elt Ideal) ((c : Thread nD τ).loc main_v0_0) :=
  head (aX m c) (aW1 m c) (aB1 m c) (aW2 m c) (aB2 m c) (aWc m c) (aBc m c)
/-- What the second result array ends holding: the second head. -/
abbrev bboxOf : Buf (Elt Ideal) ((c : Thread nD τ).loc main_v0_1) :=
  head (aX m c) (aW1 m c) (aB1 m c) (aW2 m c) (aB2 m c) (aWb m c) (aBb m c)

/-! ## The running sum -/

/-- Column block `s`'s share of entry `(p, q)` of `x · W₁` (zero past the seventh block, which is never read). -/
def part (s : ℕ) (p : Fin 1000) (q : Fin 1024) : EReal :=
  if h : s < 7 then
    ∑ l : Fin 1792, aX m c (ix2 p (Cert.BlockSum.pos 7 1792 rfl ⟨s, h⟩ l)) * aW1 m c (ix2 (Cert.BlockSum.pos 7 1792 rfl ⟨s, h⟩ l) q)
  else 0

/-- The block of `x` that point `t` sees. -/
abbrev xAt (t : Fin cfg0.N) : (⟨2, ![1000, 1792]⟩ : Shape).Idx → EReal := iblk m c 0 t
/-- The block of `W₁` that point `t` sees. -/
abbrev w1At (t : Fin cfg0.N) : (⟨2, ![1792, 1024]⟩ : Shape).Idx → EReal := iblk m c 1 t

/-- The product of the blocks point `t` sees, at an entry, is column block `t`'s share. -/
theorem prod_apply (t : Fin cfg0.N) (p : Fin 1000) (q : Fin 1024) :
    ∑ l : Fin 1792, xAt m c t (ix2 p l) * w1At m c t (ix2 l q) = part m c t.val p q := by
  unfold part
  rw [dif_pos (lt_of_lt_of_eq t.isLt N_0)]
  exact Finset.sum_congr rfl fun l _ => congrArg₂ (· * ·) (Blocks.x_apply m c t p l) (Blocks.w1_apply m c t l q)

/-- The first point's step: zeros, plus its product. -/
theorem step_first (h : 0 < cfg0.N) :
    Value.scAt0_0 m c 0 h (VS0_0.read (Elt Ideal) VS0_0.junk) = k0_pay2 k0_pay1 (iblk m c 0 (⟨0, h⟩ : Fin cfg0.N)) (iblk m c 1 (⟨0, h⟩ : Fin cfg0.N)) := by
  unfold Value.scAt0_0
  rw [dif_pos (Nat.zero_mod 7), dif_neg (by decide)]
  exact Pieces.scratch_first (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) (ms0_10 (⟨0, h⟩ : Fin cfg0.N)) (hs0_10 (⟨0, h⟩ : Fin cfg0.N)) scM0_0 (Memref.isWhole_whole _) _ _ (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N)) (iblk m c 8 (⟨0, h⟩ : Fin cfg0.N))

/-- A middle point's step: what the point before left, plus its product. -/
theorem step_middle (n : ℕ) (h : n < cfg0.N) (h0 : ¬n % 7 = 0) (h1 : ¬n % 7 = 6) (acc : Vec Ideal S1000x1024 .f32) :
    Value.scAt0_0 m c n h acc = k0_pay2 acc (iblk m c 0 (⟨n, h⟩ : Fin cfg0.N)) (iblk m c 1 (⟨n, h⟩ : Fin cfg0.N)) := by
  unfold Value.scAt0_0
  rw [dif_neg h0, dif_neg h1]
  exact Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) acc

theorem five_lt : 5 < cfg0.N := by rw [show cfg0.N = 7 from N_0]; decide

/-- The scratch after the sixth point, at an entry: zero plus the first six column blocks' shares. -/
theorem acc_before_last (p : Fin 1000) (q : Fin 1024) :
    (outsAt0 m c 5 five_lt).2.2 (ix2 p q) = z + ∑ s ∈ Finset.range 6, part m c s p q := by
  rw [Value.soutsAt0_0_sweep m c 5 five_lt]
  refine (Pipeline.accAt_add_apply (N := cfg0.N) _ _ (fun _ => z) (fun s i => part m c s (i 0) (i 1)) 0 5 ?_ ?_ 5 le_rfl _
    (ix2 p q)).trans ?_
  · intro h i
    obtain ⟨p, q, rfl⟩ : ∃ (p : Fin 1000) (q : Fin 1024), i = ix2 p q := ⟨i 0, i 1, eq_ix2 i⟩
    show Value.scAt0_0 m c 0 h _ (ix2 p q) = z + part m c 0 p q
    rw [step_first m c h]
    refine (Layers.step_apply _ (xAt m c (⟨0, h⟩ : Fin cfg0.N)) (w1At m c (⟨0, h⟩ : Fin cfg0.N)) p q).trans ?_
    rw [Layers.zero_apply, prod_apply m c (⟨0, h⟩ : Fin cfg0.N) p q]
  · intro n h acc i hn0 hn5
    obtain ⟨p, q, rfl⟩ : ∃ (p : Fin 1000) (q : Fin 1024), i = ix2 p q := ⟨i 0, i 1, eq_ix2 i⟩
    show Value.scAt0_0 m c n h acc (ix2 p q) = acc (ix2 p q) + part m c n p q
    rw [step_middle m c n h (by omega) (by omega) acc]
    refine (Layers.step_apply acc (xAt m c (⟨n, h⟩ : Fin cfg0.N)) (w1At m c (⟨n, h⟩ : Fin cfg0.N)) p q).trans ?_
    rw [prod_apply m c (⟨n, h⟩ : Fin cfg0.N) p q]
  · simp only [Nat.zero_add]

theorem nfirst : ¬t0_6.val % 7 = 0 := by decide
theorem islast : t0_6.val % 7 = 6 := by decide

/-- The finished sum the last point computes its outputs from: what the sixth point left plus the last product. -/
abbrev finished : Vec Ideal S1000x1024 .f32 :=
  k0_pay2 (outsAt0 m c (t0_6.val - 1) (Nat.lt_of_le_of_lt (Nat.sub_le _ _) t0_6.isLt)).2.2 (iblk m c 0 t0_6) (iblk m c 1 t0_6)

/-- The finished sum is the full product `x · W₁`, entry by entry. -/
theorem finished_apply (p : Fin 1000) (q : Fin 1024) :
    finished m c (ix2 p q) = ∑ r : Fin 12544, aX m c (ix2 p r) * aW1 m c (ix2 r q) := by
  refine (Layers.step_apply _ (xAt m c t0_6) (w1At m c t0_6) p q).trans ?_
  rw [prod_apply m c t0_6 p q]
  refine (congrArg (· + part m c t0_6.val p q) (acc_before_last m c p q)).trans ?_
  show (z + ∑ s ∈ Finset.range 6, part m c s p q) + part m c 6 p q = _
  simp only [z, Ideal.ofBits_zero_f32, zero_add]
  rw [← Finset.sum_range_succ (fun s => part m c s p q) 6, Finset.sum_range,
    Cert.BlockSum.sum_blocks 7 1792 rfl (fun r => aX m c (ix2 p r) * aW1 m c (ix2 r q))]
  exact Finset.sum_congr rfl fun s _ => by unfold part; rw [dif_pos s.isLt]

/-! ## The two result arrays -/

/-- The last point's first output block is the first head of the argument arrays. -/
theorem score_block : out0_C_9 c (grid0.coords t0_6) (ms0_0 t0_6) (hs0_0 t0_6) (ms0_1 t0_6) (hs0_1 t0_6) (ms0_2 t0_6) (hs0_2 t0_6) (ms0_3 t0_6) (hs0_3 t0_6) (ms0_4 t0_6) (hs0_4 t0_6) (ms0_5 t0_6) (hs0_5 t0_6) (ms0_6 t0_6) (hs0_6 t0_6) (ms0_7 t0_6) (hs0_7 t0_6) (ms0_8 t0_6) (hs0_8 t0_6) (ms0_9 t0_6) (hs0_9 t0_6) (ms0_10 t0_6) (hs0_10 t0_6) scM0_0 (Memref.isWhole_whole _) (fun h => nfirst ((hcond0_0 t0_6).mp h)) ((hcond0_1 t0_6).mpr islast) (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (outsAt0 m c (t0_6.val - 1) (Nat.lt_of_le_of_lt (Nat.sub_le _ _) t0_6.isLt)).2.2 = scoreOf m c := by
  rw [Pieces.score_last (F := Ideal) c (grid0.coords t0_6) (ms0_0 t0_6) (hs0_0 t0_6) (ms0_1 t0_6) (hs0_1 t0_6) (ms0_2 t0_6) (hs0_2 t0_6) (ms0_3 t0_6) (hs0_3 t0_6) (ms0_4 t0_6) (hs0_4 t0_6) (ms0_5 t0_6) (hs0_5 t0_6) (ms0_6 t0_6) (hs0_6 t0_6) (ms0_7 t0_6) (hs0_7 t0_6) (ms0_8 t0_6) (hs0_8 t0_6) (ms0_9 t0_6) (hs0_9 t0_6) (ms0_10 t0_6) (hs0_10 t0_6) scM0_0 (Memref.isWhole_whole _) (fun h => nfirst ((hcond0_0 t0_6).mp h)) ((hcond0_1 t0_6).mpr islast) (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (outsAt0 m c (t0_6.val - 1) (Nat.lt_of_le_of_lt (Nat.sub_le _ _) t0_6.isLt)).2.2]
  exact Layers.score_eq (aX m c) (aW1 m c) (aB1 m c) (aW2 m c) (aB2 m c) (finished m c) (iblk m c 2 t0_6) (iblk m c 3 t0_6)
    (iblk m c 4 t0_6) (iblk m c 5 t0_6) (iblk m c 6 t0_6) (aWc m c) (aBc m c) (finished_apply m c)
    (Blocks.row2_apply m c t0_6) (Blocks.whole3_apply m c t0_6) (Blocks.row4_apply m c t0_6)
    (Blocks.whole5_apply m c t0_6) (Blocks.row6_apply m c t0_6)

/-- The last point's second output block is the second head of the argument arrays. -/
theorem bbox_block : out0_C_10 c (grid0.coords t0_6) (ms0_0 t0_6) (hs0_0 t0_6) (ms0_1 t0_6) (hs0_1 t0_6) (ms0_2 t0_6) (hs0_2 t0_6) (ms0_3 t0_6) (hs0_3 t0_6) (ms0_4 t0_6) (hs0_4 t0_6) (ms0_5 t0_6) (hs0_5 t0_6) (ms0_6 t0_6) (hs0_6 t0_6) (ms0_7 t0_6) (hs0_7 t0_6) (ms0_8 t0_6) (hs0_8 t0_6) (ms0_9 t0_6) (hs0_9 t0_6) (ms0_10 t0_6) (hs0_10 t0_6) scM0_0 (Memref.isWhole_whole _) (fun h => nfirst ((hcond0_0 t0_6).mp h)) ((hcond0_1 t0_6).mpr islast) (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (outsAt0 m c (t0_6.val - 1) (Nat.lt_of_le_of_lt (Nat.sub_le _ _) t0_6.isLt)).2.2 = bboxOf m c := by
  rw [Pieces.bbox_last (F := Ideal) c (grid0.coords t0_6) (ms0_0 t0_6) (hs0_0 t0_6) (ms0_1 t0_6) (hs0_1 t0_6) (ms0_2 t0_6) (hs0_2 t0_6) (ms0_3 t0_6) (hs0_3 t0_6) (ms0_4 t0_6) (hs0_4 t0_6) (ms0_5 t0_6) (hs0_5 t0_6) (ms0_6 t0_6) (hs0_6 t0_6) (ms0_7 t0_6) (hs0_7 t0_6) (ms0_8 t0_6) (hs0_8 t0_6) (ms0_9 t0_6) (hs0_9 t0_6) (ms0_10 t0_6) (hs0_10 t0_6) scM0_0 (Memref.isWhole_whole _) (fun h => nfirst ((hcond0_0 t0_6).mp h)) ((hcond0_1 t0_6).mpr islast) (iblk m c 0 t0_6) (iblk m c 1 t0_6) (iblk m c 2 t0_6) (iblk m c 3 t0_6) (iblk m c 4 t0_6) (iblk m c 5 t0_6) (iblk m c 6 t0_6) (iblk m c 7 t0_6) (iblk m c 8 t0_6) (outsAt0 m c (t0_6.val - 1) (Nat.lt_of_le_of_lt (Nat.sub_le _ _) t0_6.isLt)).2.2]
  exact Layers.bbox_eq (aX m c) (aW1 m c) (aB1 m c) (aW2 m c) (aB2 m c) (finished m c) (iblk m c 2 t0_6) (iblk m c 3 t0_6)
    (iblk m c 4 t0_6) (iblk m c 7 t0_6) (iblk m c 8 t0_6) (aWb m c) (aBb m c) (finished_apply m c)
    (Blocks.row2_apply m c t0_6) (Blocks.whole3_apply m c t0_6) (Blocks.row4_apply m c t0_6)
    (Blocks.whole7_apply m c t0_6) (Blocks.row8_apply m c t0_6)

/-- The one write-back of the first result, at the last point, writes the first head: the block is the whole array. -/
theorem score_flushed (t : Fin cfg0.N) (hf : (cfg0.win 9).flush t = true) :
    (dats m 0 c).flushed 9 t = ((cfg0.win 9).blk t).view.read (Elt Ideal) (scoreOf m c) := by
  have hN : cfg0.N = 7 := N_0
  have h6 : t.val = 6 := by have := (flush0_9 t).mp hf; have := t.isLt; omega
  obtain rfl : t = t0_6 := Fin.ext h6
  refine (Value.flushed9_C m c t0_6 nfirst islast).trans ?_
  rw [score_block m c]
  have origin : (fun a => win0_9.index t0_6 a * main_v0_0.ty.shape.size a) = fun _ => 0 :=
    funext fun a => by fin_cases a <;> decide +kernel
  exact (Memref.read_access_unit_zero (Elt Ideal) main_v0_0 origin (fun a => by rw [congrFun origin a]; simp) (scoreOf m c)).symm

/-- The one write-back of the second result writes the second head. -/
theorem bbox_flushed (t : Fin cfg0.N) (hf : (cfg0.win 10).flush t = true) :
    (dats m 0 c).flushed 10 t = ((cfg0.win 10).blk t).view.read (Elt Ideal) (bboxOf m c) := by
  have hN : cfg0.N = 7 := N_0
  have h6 : t.val = 6 := by have := (flush0_10 t).mp hf; have := t.isLt; omega
  obtain rfl : t = t0_6 := Fin.ext h6
  refine (Value.flushed10_C m c t0_6 nfirst islast).trans ?_
  rw [bbox_block m c]
  have origin : (fun a => win0_10.index t0_6 a * main_v0_1.ty.shape.size a) = fun _ => 0 :=
    funext fun a => by fin_cases a <;> decide +kernel
  exact (Memref.read_access_unit_zero (Elt Ideal) main_v0_1 origin (fun a => by rw [congrFun origin a]; simp) (bboxOf m c)).symm

/-- The last point's block of the first result is the whole array: its origin is `(0, 0)` and its extents are the
    array's, so every index lies in it. -/
theorem score_cover (i : ((cfg0.win 9).arr.view.loc (c.tc : Thread nD τ)).2.ty.Idx) :
    ∃ t : Fin cfg0.N, (cfg0.win 9).flush t = true ∧ i ∈ ((cfg0.win 9).blk t).view.set := by
  refine ⟨t0_6, (flush0_9 t0_6).mpr islast, ?_⟩
  show i ∈ ((View.whole main_v0_0).slice (win0_9.rect t0_6)).set
  rw [View.set_slice_whole, Rect.mem_set_unit]
  have origin : ∀ a : Fin 2, win0_9.index t0_6 a * win0_9.size a = 0 := by decide +kernel
  have extent : ∀ a : Fin 2, win0_9.xsize (grid0.coords t0_6) a = S1000x91.size a := by decide +kernel
  intro a
  show win0_9.index t0_6 a * win0_9.size a ≤ (i a : Nat)
    ∧ (i a : Nat) < win0_9.index t0_6 a * win0_9.size a + win0_9.xsize (grid0.coords t0_6) a
  rw [origin a, extent a]
  exact ⟨Nat.zero_le _, by rw [Nat.zero_add]; exact (i a).isLt⟩

/-- The last point's block of the second result is the whole array: its origin is `(0, 0)` and its extents are the
    array's, so every index lies in it. -/
theorem bbox_cover (i : ((cfg0.win 10).arr.view.loc (c.tc : Thread nD τ)).2.ty.Idx) :
    ∃ t : Fin cfg0.N, (cfg0.win 10).flush t = true ∧ i ∈ ((cfg0.win 10).blk t).view.set := by
  refine ⟨t0_6, (flush0_10 t0_6).mpr islast, ?_⟩
  show i ∈ ((View.whole main_v0_1).slice (win0_10.rect t0_6)).set
  rw [View.set_slice_whole, Rect.mem_set_unit]
  have origin : ∀ a : Fin 2, win0_10.index t0_6 a * win0_10.size a = 0 := by decide +kernel
  have extent : ∀ a : Fin 2, win0_10.xsize (grid0.coords t0_6) a = S1000x364.size a := by decide +kernel
  intro a
  show win0_10.index t0_6 a * win0_10.size a ≤ (i a : Nat)
    ∧ (i a : Nat) < win0_10.index t0_6 a * win0_10.size a + win0_10.xsize (grid0.coords t0_6) a
  rw [origin a, extent a]
  exact ⟨Nat.zero_le _, by rw [Nat.zero_add]; exact (i a).isLt⟩

/-- So the first result array ends holding the first head … -/
theorem score_final : (dats m 0 c).arrAt 9 cfg0.N = scoreOf m c :=
  (dats m 0 c).arrAt_eq_of_cover 9 (scoreOf m c) (score_flushed m c) (score_cover c)

/-- … and the second the second head. -/
theorem bbox_final : (dats m 0 c).arrAt 10 cfg0.N = bboxOf m c :=
  (dats m 0 c).arrAt_eq_of_cover 10 (bboxOf m c) (bbox_flushed m c) (bbox_cover c)

/-- The idealized kernel's run: both result arrays at the perceptron's heads of the arguments, the arguments unchanged. -/
theorem run : θ_run defs (onTc (τ := τ) (main (F := Ideal))) ⟨m, fun _ => 0, ρ⟩ fun r => ∀ c : Dev nD,
      r.2.mem ((c : Thread nD τ).loc main_v0_0) = scoreOf m c
      ∧ r.2.mem ((c : Thread nD τ).loc main_v0_1) = bboxOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (score_final m c), (h c).2.1.trans (bbox_final m c), (h c).2.2⟩)
    (Value.run_blocks m ρ)

end Cert.KernelIdeal.KernelValue

end
-- ==== Proof.RefValue.lean ====
/-
  The reference computes the perceptron's function: each of its operations read at an entry — a product as the sum
  over the contracted coordinate, a bias broadcast as the bias entry of the column, the rectifier as `max · 0` —
  composes to `Mlp.head` of the argument arrays.
-/
import proofs.«111697_g32693291057340_cont_8to1_b_1144_3_alg».proof.Proof.Gen.ReferenceIdeal.Read
import proofs.«111697_g32693291057340_cont_8to1_b_1144_3_alg».proof.Proof.Mlp

noncomputable section

open scoped BigOperators
open Idealize.ShloMosaic Idealize.ShloMosaic.ValueIdx

namespace Cert.ReferenceIdeal.RefValue

open Cert.ReferenceIdeal Cert.ReferenceIdeal.Read Cert.Mlp

/-! The operand entries a product reads, and the bias entry a broadcast reads, by coordinates. -/

theorem l0 (p : Fin 1000) (q : Fin 1024) (k : Fin 12544) : lidx_main_v0 (ix2 p q) k = ix2 p k :=
  funext fun a => Fin.ext (by match a with | ⟨0, _⟩ => rfl | ⟨1, _⟩ => rfl)

theorem r0 (p : Fin 1000) (q : Fin 1024) (k : Fin 12544) : ridx_main_v0 (ix2 p q) k = ix2 k q :=
  funext fun a => Fin.ext (by match a with | ⟨0, _⟩ => rfl | ⟨1, _⟩ => rfl)

theorem l5 (p : Fin 1000) (q : Fin 1024) (k : Fin 1024) : lidx_main_v5 (ix2 p q) k = ix2 p k :=
  funext fun a => Fin.ext (by match a with | ⟨0, _⟩ => rfl | ⟨1, _⟩ => rfl)

theorem r5 (p : Fin 1000) (q : Fin 1024) (k : Fin 1024) : ridx_main_v5 (ix2 p q) k = ix2 k q :=
  funext fun a => Fin.ext (by match a with | ⟨0, _⟩ => rfl | ⟨1, _⟩ => rfl)

theorem l10 (p : Fin 1000) (n : Fin 91) (k : Fin 1024) : lidx_main_v10 (ix2 p n) k = ix2 p k :=
  funext fun a => Fin.ext (by match a with | ⟨0, _⟩ => rfl | ⟨1, _⟩ => rfl)

theorem r10 (p : Fin 1000) (n : Fin 91) (k : Fin 1024) : ridx_main_v10 (ix2 p n) k = ix2 k n :=
  funext fun a => Fin.ext (by match a with | ⟨0, _⟩ => rfl | ⟨1, _⟩ => rfl)

theorem l14 (p : Fin 1000) (n : Fin 364) (k : Fin 1024) : lidx_main_v14 (ix2 p n) k = ix2 p k :=
  funext fun a => Fin.ext (by match a with | ⟨0, _⟩ => rfl | ⟨1, _⟩ => rfl)

theorem r14 (p : Fin 1000) (n : Fin 364) (k : Fin 1024) : ridx_main_v14 (ix2 p n) k = ix2 k n :=
  funext fun a => Fin.ext (by match a with | ⟨0, _⟩ => rfl | ⟨1, _⟩ => rfl)

theorem i1 (p : Fin 1000) (q : Fin 1024) : idx_main_v1 (idx_main_v2 (ix2 p q)) = ix1 q :=
  funext fun a => Fin.ext (by match a with | ⟨0, _⟩ => rfl)

theorem i6 (p : Fin 1000) (q : Fin 1024) : idx_main_v6 (idx_main_v7 (ix2 p q)) = ix1 q :=
  funext fun a => Fin.ext (by match a with | ⟨0, _⟩ => rfl)

theorem i11 (p : Fin 1000) (n : Fin 91) : idx_main_v11 (idx_main_v12 (ix2 p n)) = ix1 n :=
  funext fun a => Fin.ext (by match a with | ⟨0, _⟩ => rfl)

theorem i15 (p : Fin 1000) (n : Fin 364) : idx_main_v15 (idx_main_v16 (ix2 p n)) = ix1 n :=
  funext fun a => Fin.ext (by match a with | ⟨0, _⟩ => rfl)

variable (X : (⟨2, ![1000, 12544]⟩ : Shape).Idx → EReal) (W1 : (⟨2, ![12544, 1024]⟩ : Shape).Idx → EReal)
  (B1 : (⟨1, ![1024]⟩ : Shape).Idx → EReal) (W2 : (⟨2, ![1024, 1024]⟩ : Shape).Idx → EReal)
  (B2 : (⟨1, ![1024]⟩ : Shape).Idx → EReal)

/-- The first hidden layer at an entry. -/
theorem first_apply (p : Fin 1000) (q : Fin 1024) :
    val_main_v4 (F := Ideal) X W1 B1 (ix2 p q) = max (dense (mat X p) (mat W1) (vec B1) q) z := by
  rw [val_main_v4_apply, val_main_v3_apply, val_main_v0_apply, val_main_v2_apply, val_main_v1_apply,
    val_main_call0_v0_apply, val_main_call0_cst_apply]
  simp only [l0, r0, i1, Ideal.addf_def, Ideal.maximumf_def, Ideal.ofBits_def]
  rfl

/-- The second hidden layer at an entry. -/
theorem second_apply (p : Fin 1000) (k : Fin 1024) :
    val_main_v9 (F := Ideal) X W1 B1 W2 B2 (ix2 p k) = hidden (mat X p) (mat W1) (vec B1) (mat W2) (vec B2) k := by
  rw [val_main_v9_apply, val_main_v8_apply, val_main_v5_apply, val_main_v7_apply, val_main_v6_apply,
    val_main_call1_v0_apply, val_main_call1_cst_apply]
  simp only [l5, r5, i6, first_apply, Ideal.addf_def, Ideal.maximumf_def, Ideal.ofBits_def]
  rfl

/-- The first result is the first head. -/
theorem score_eq (Wc : (⟨2, ![1024, 91]⟩ : Shape).Idx → EReal) (Bc : (⟨1, ![91]⟩ : Shape).Idx → EReal) :
    val_main_v13 (F := Ideal) X W1 B1 W2 B2 Wc Bc = head X W1 B1 W2 B2 Wc Bc := by
  funext i
  obtain ⟨p, n, rfl⟩ : ∃ (p : Fin 1000) (n : Fin 91), i = ix2 p n := ⟨i 0, i 1, eq_ix2 i⟩
  rw [val_main_v13_apply, val_main_v10_apply, val_main_v12_apply, val_main_v11_apply]
  simp only [l10, r10, i11, second_apply, Ideal.addf_def]
  rfl

/-- The second result is the second head. -/
theorem bbox_eq (Wb : (⟨2, ![1024, 364]⟩ : Shape).Idx → EReal) (Bb : (⟨1, ![364]⟩ : Shape).Idx → EReal) :
    val_main_v17 (F := Ideal) X W1 B1 W2 B2 Wb Bb = head X W1 B1 W2 B2 Wb Bb := by
  funext i
  obtain ⟨p, n, rfl⟩ : ∃ (p : Fin 1000) (n : Fin 364), i = ix2 p n := ⟨i 0, i 1, eq_ix2 i⟩
  rw [val_main_v17_apply, val_main_v14_apply, val_main_v16_apply, val_main_v15_apply]
  simp only [l14, r14, i15, second_apply, Ideal.addf_def]
  rfl

end Cert.ReferenceIdeal.RefValue

end
-- ==== Proof.lean ====
/-
  The claim: a Pallas kernel for a two-hidden-layer perceptron with two linear heads,
      h₁ = max (x · W₁ + b₁) 0,   h₂ = max (h₁ · W₂ + b₂) 0,   score = h₂ · Wc + bc,   bbox = h₂ · Wb + bb,
  against the same four lines of jnp. The kernel walks the contraction axis of `x · W₁` (12544 = 7 · 1792) in seven
  grid points, adding each point's partial product into a scratch buffer zeroed at the first point, and at the last
  point computes both heads from the finished sum. Over the extended reals the seven partial products add up to the
  full product — a sum regrouped into consecutive blocks, which needs only commutativity and associativity of
  addition, so no finiteness of the inputs is used — and every later operation is the same on both sides: a matrix
  product into a zero accumulator is the host's `dot_general`, a bias viewed as a one-row matrix and broadcast down
  the rows is the host's two-step broadcast of the vector, the rectifier is `max · 0` on both.

  Proof/Mlp.lean states the function; Proof/BlockSum.lean the regrouping; Proof/PlainDot.lean a plain matrix product at
  an entry; Proof/Pieces.lean, Proof/Blocks.lean and Proof/Layers.lean read the kernel body's stores, its input blocks and its
  arithmetic; Proof/KernelValue.lean folds the accumulation over the grid and reads the result arrays;
  Proof/RefValue.lean reads the reference. The three frames are the generated runs; the idealization rewrote nothing.
-/
import proofs.«111697_g32693291057340_cont_8to1_b_1144_3_alg».proof.Defs
import proofs.«111697_g32693291057340_cont_8to1_b_1144_3_alg».proof.Proof.Gen.Kernel
import proofs.«111697_g32693291057340_cont_8to1_b_1144_3_alg».proof.Proof.Gen.Kernel.Frame
import proofs.«111697_g32693291057340_cont_8to1_b_1144_3_alg».proof.Proof.Gen.KernelIdeal
import proofs.«111697_g32693291057340_cont_8to1_b_1144_3_alg».proof.Proof.Gen.KernelIdeal.Frame
import proofs.«111697_g32693291057340_cont_8to1_b_1144_3_alg».proof.Proof.Gen.KernelIdeal.Value
import proofs.«111697_g32693291057340_cont_8to1_b_1144_3_alg».proof.Proof.Gen.ReferenceIdeal
import proofs.«111697_g32693291057340_cont_8to1_b_1144_3_alg».proof.Proof.Gen.ReferenceIdeal.Run
import proofs.«111697_g32693291057340_cont_8to1_b_1144_3_alg».proof.Proof.Gen.ReferenceIdeal.Read
import proofs.«111697_g32693291057340_cont_8to1_b_1144_3_alg».proof.Proof.Gen.Pre_finite_inputs
import proofs.«111697_g32693291057340_cont_8to1_b_1144_3_alg».proof.Proof.KernelValue
import proofs.«111697_g32693291057340_cont_8to1_b_1144_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the perceptron's two heads of the argument arrays, which agree. -/
theorem algebraic : Cert.algebraic_KernelIdeal_ReferenceIdeal := by
  intro m ρ m' ρ' _ hagree
  refine ⟨fun c => Cert.KernelIdeal.KernelValue.scoreOf m c, fun c => Cert.KernelIdeal.KernelValue.bboxOf m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v13_eq (F := Ideal) _ _ _ _ _ _ _).trans ?_
    rw [Cert.ReferenceIdeal.RefValue.score_eq, (hagree c).1, (hagree c).2.1, (hagree c).2.2.1, (hagree c).2.2.2.1,
      (hagree c).2.2.2.2.1, (hagree c).2.2.2.2.2.1, (hagree c).2.2.2.2.2.2.1]
  · refine (Cert.ReferenceIdeal.Read.val_main_v17_eq (F := Ideal) _ _ _ _ _ _ _).trans ?_
    rw [Cert.ReferenceIdeal.RefValue.bbox_eq, (hagree c).1, (hagree c).2.1, (hagree c).2.2.1, (hagree c).2.2.2.1,
      (hagree c).2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
